-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x256 : Shape := ⟨2, ![128, 256]⟩
abbrev S256 : Shape := ⟨1, ![256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S50000x128 .f32) (main_arg1 : IVec S800000 32) (main_arg2 : IVec S800000 32) (main_arg3 : FVec F S800000 .f32) (main_arg4 : FVec F S128x256 .f32) (main_arg5 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S50000x128 : Shape := ⟨2, ![50000, 128]⟩
abbrev S800000 : Shape := ⟨1, ![800000]⟩
abbrev S128x256 : Shape := ⟨2, ![128, 256]⟩
abbrev S256 : Shape := ⟨1, ![256]⟩
abbrev S800000x1 : Shape := ⟨2, ![800000, 1]⟩
abbrev S_ : Shape := ⟨0, ![]⟩
abbrev S800000x128 : Shape := ⟨2, ![800000, 128]⟩
abbrev S50000x256 : Shape := ⟨2, ![50000, 256]⟩
abbrev S5000x128 : Shape := ⟨2, ![5000, 128]⟩
abbrev S5000x256 : Shape := ⟨2, ![5000, 256]⟩
abbrev S1x256 : Shape := ⟨2, ![1, 256]⟩

abbrev nBuf : Space → Nat
  | .hbm => 23
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x256, .f32⟩
  | .hbm, ⟨5, _⟩ => ⟨S256, .f32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S800000x128, .f32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S50000x256, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S256, .f32⟩
  | .local _ .vmem, ⟨4, _⟩ => ⟨S5000x256, .f32⟩
  | .local _ .vmem, ⟨5, _⟩ => ⟨S5000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x256 : Shape := ⟨2, ![128, 256]⟩
abbrev S256 : Shape := ⟨1, ![256]⟩
abbrev S800000x1 : Shape := ⟨2, ![800000, 1]⟩
abbrev S_ : Shape := ⟨0, ![]⟩
abbrev S800000x128 : Shape := ⟨2, ![800000, 128]⟩
abbrev S50000x256 : Shape := ⟨2, ![50000, 256]⟩
abbrev S1x256 : Shape := ⟨2, ![1, 256]⟩

abbrev nBuf : Space → Nat
  | .hbm => 26
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x256, .f32⟩
  | .hbm, ⟨5, _⟩ => ⟨S256, .f32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S800000x128, .f32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S50000x256, .f32⟩
  | .hbm, ⟨23, _⟩ => ⟨S1x256, .f32⟩
  | .hbm, ⟨24, _⟩ => ⟨S50000x256, .f32⟩
  | .hbm, ⟨25, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf

class Facts : Prop extends Facts₀ where

variable [Facts]
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.AffineRows.lean ====
/-
  The dense layer as ONE function of its three operands. For a table `A` of `M` rows and 128 columns, a matrix `W` of
  128 rows and 256 columns and a vector `b` of 256 entries,
      rows M A W b (r, c) = (∑ k : Fin 128, A (r, k) · W (k, c)) + b c
  on the extended reals: every row of `A` times `W`, plus `b` laid along every row. Row `r` of the result depends on
  row `r` of `A` only, so a block of consecutive rows of the result is the same function of the same block of rows of
  `A` (`rows_block`): this is what lets a product computed 5000 rows at a time be compared with the product of the
  whole table. No law of the extended reals is used beyond reading both sides as the same sum.
-/
import proofs.«155313_j50105088475682_1_alg».proof.Proof.LibDenseRows

noncomputable section

namespace Cert.AffineRows

open Idealize.ShloMosaic Idealize.ShloMosaic.ValueIdx
open scoped BigOperators

/-- Every row of `A` times `W`, plus `b` along the row. -/
def rows (M : ℕ) (A : FVec Ideal ⟨2, ![M, 128]⟩ .f32) (W : FVec Ideal ⟨2, ![128, 256]⟩ .f32) (b : FVec Ideal ⟨1, ![256]⟩ .f32) :
    FVec Ideal ⟨2, ![M, 256]⟩ .f32 :=
  fun i => (∑ k : Fin 128, A (ix2 (⟨(i 0).val, idx2_lt0 i⟩ : Fin M) k) * W (ix2 k (⟨(i 1).val, idx2_lt1 i⟩ : Fin 256)))
    + b (ix1 (⟨(i 1).val, idx2_lt1 i⟩ : Fin 256))

/-- The layer at row `r`, column `c`. -/
theorem rows_apply (M : ℕ) (A : FVec Ideal ⟨2, ![M, 128]⟩ .f32) (W : FVec Ideal ⟨2, ![128, 256]⟩ .f32) (b : FVec Ideal ⟨1, ![256]⟩ .f32)
    (r : Fin M) (c : Fin 256) :
    rows M A W b (ix2 r c) = (∑ k : Fin 128, A (ix2 r k) * W (ix2 k c)) + b (ix1 c) := rfl

/-- A block of rows of the layer is the layer of that block of rows: if `x` holds rows `off, off + 1, …` of `A`, then row
    `p` of the layer of `x` is row `off + p` of the layer of `A`. -/
theorem rows_block {M B : ℕ} (A : FVec Ideal ⟨2, ![M, 128]⟩ .f32) (x : FVec Ideal ⟨2, ![B, 128]⟩ .f32)
    (W : FVec Ideal ⟨2, ![128, 256]⟩ .f32) (b : FVec Ideal ⟨1, ![256]⟩ .f32) (p : Fin B) (r : Fin M) (c : Fin 256)
    (hx : ∀ k : Fin 128, x (ix2 p k) = A (ix2 r k)) :
    rows B x W b (ix2 p c) = rows M A W b (ix2 r c) := by
  rw [rows_apply, rows_apply]
  exact congrArg (· + b (ix1 c)) (Finset.sum_congr rfl fun k _ => by rw [hx k])

end Cert.AffineRows

end
-- ==== Proof.BodyRows.lean ====
/-
  What one grid point of the kernel stores, index by index. The body loads a block `x` of 5000 rows of the aggregated
  table, the whole weight matrix `W` and the whole bias `b`; it multiplies `x` by `W` into a zero accumulator (the change
  of format on the way in is the identity on the extended reals, and a zero accumulator adds nothing), views `b` as one row,
  lays it over the 5000 rows and adds. At row `p` and column `q` of the block that is `(∑ k, x (p, k) · W (k, q)) + b q`: the dense
  layer `AffineRows.rows` of the block.
-/
import proofs.«155313_j50105088475682_1_alg».proof.Proof.Gen.KernelIdeal.Skeleton
import proofs.«155313_j50105088475682_1_alg».proof.Proof.AffineRows

noncomputable section

namespace Cert.BodyRows

open Idealize.ShloMosaic Idealize.ShloMosaic.ValueIdx
open Cert.KernelIdeal Cert.KernelIdeal.Gen Cert.AffineRows Cert.DenseRows
open scoped BigOperators

/-- The product's kept left axis: a result index's row is the left operand's row. -/
theorem lhs_row (j : S5000x256.Idx) (k : dot_S5000x128_S128x256_S5000x256_1_0_0_1_n_n.contr.Idx) :
    (dot_S5000x128_S128x256_S5000x256_1_0_0_1_n_n.lhsIdx j k (0 : Fin 2)).val = (j (0 : Fin 2)).val := by
  unfold DotDims.lhsIdx
  rw [dif_neg (show ¬(0 : Fin S5000x128.rank) ∈ dot_S5000x128_S128x256_S5000x256_1_0_0_1_n_n.lhsBatch by decide),
    dif_pos (show (0 : Fin S5000x128.rank) ∈ dot_S5000x128_S128x256_S5000x256_1_0_0_1_n_n.lhsNonContracting by decide)]
  rfl

/-- The product's kept right axis: a result index's column is the right operand's column. -/
theorem rhs_col (j : S5000x256.Idx) (k : dot_S5000x128_S128x256_S5000x256_1_0_0_1_n_n.contr.Idx) :
    (dot_S5000x128_S128x256_S5000x256_1_0_0_1_n_n.rhsIdx j k (1 : Fin 2)).val = (j (1 : Fin 2)).val := by
  unfold DotDims.rhsIdx
  rw [dif_neg (show ¬(1 : Fin S128x256.rank) ∈ dot_S5000x128_S128x256_S5000x256_1_0_0_1_n_n.rhsBatch by decide),
    dif_pos (show (1 : Fin S128x256.rank) ∈ dot_S5000x128_S128x256_S5000x256_1_0_0_1_n_n.rhsNonContracting by decide)]
  rfl

/-- The value the body stores is the dense layer of the block of rows it loaded. -/
theorem stored_eq_rows (x : FVec Ideal S5000x128 .f32) (W : FVec Ideal S128x256 .f32) (b : FVec Ideal S256 .f32) :
    k0_pay1 (F := Ideal) x W b = rows 5000 x W b := by
  funext j
  obtain ⟨p, q, rfl⟩ : ∃ (p : Fin 5000) (q : Fin 256), j = ix2 p q := ⟨j 0, j 1, eq_ix2 j⟩
  unfold k0_pay1
  refine (addf_apply _ _ (ix2 p q)).trans ?_
  refine (rows_apply 5000 x W b p q).symm ▸ ?_
  refine congrArg₂ (· + ·) ?_ ?_
  · refine (matmul_zero_plain_apply dot_S5000x128_S128x256_S5000x256_1_0_0_1_n_n rfl rfl rfl rfl lhs_row rhs_col _ _ p q).trans ?_
    refine Finset.sum_congr rfl fun k _ => ?_
    rw [shapeCast_self]
    rfl
  · exact rowBias_cast_apply b _ _ p q

end Cert.BodyRows

end
-- ==== Proof.KernelRows.lean ====
/-
  From blocks to the array. The kernel runs at ten grid points; point `t` fetches rows `5000 t … 5000 t + 4999` of the
  aggregated table, the whole weight matrix and the whole bias, and writes back rows `5000 t … 5000 t + 4999` of the
  result. What it writes is the dense layer of the rows it fetched (`BodyRows.stored_eq_rows`), and a row of the layer
  depends on the same row of the table only (`AffineRows.rows_block`): so point `t` writes block `t` of the dense layer
  of the WHOLE table (`flushed_eq`). The ten blocks cover all 50000 rows — row `r` lies in block `r / 5000` — so after
  the run the result array is the dense layer of the table the kernel was launched on (`final`, `run`).
-/
import proofs.«155313_j50105088475682_1_alg».proof.Proof.Gen.KernelIdeal.Value
import proofs.«155313_j50105088475682_1_alg».proof.Proof.BodyRows

noncomputable section

namespace Cert.KernelRows

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.AffineRows Cert.BodyRows

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- The block numbers over the ten points: the table's and the result's row block is the point's number, every other
    block number is zero. -/
theorem block_numbers : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row `p` of block `t` of a table of 50000 rows is row `5000 t + p` of the table. -/
theorem read_table_block (c : Dev nD) (A : Buf (Elt Ideal) ((c : Thread nD τ).loc (Pipeline.arrRef spec0 0))) (t : Fin cfg0.N)
    (p : Fin 5000) (k : Fin 128) (r : Fin 50000) (hr : r.val = t.val * 5000 + p.val) :
    (((cfg0.win 0).blk t).view.read (Elt Ideal) A : FVec Ideal S5000x128 .f32) (ix2 p k) = (A : FVec Ideal S50000x128 .f32) (ix2 r k) := by
  obtain ⟨e0, e1, -⟩ := block_numbers t
  rw [View.read_apply]
  refine congrArg A ?_
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The weights' block at every point is the whole matrix. -/
theorem read_weights_block (c : Dev nD) (A : Buf (Elt Ideal) ((c : Thread nD τ).loc (Pipeline.arrRef spec0 1))) (t : Fin cfg0.N) :
    (((cfg0.win 1).blk t).view.read (Elt Ideal) A : FVec Ideal S128x256 .f32) = (A : FVec Ideal S128x256 .f32) := by
  obtain ⟨-, -, e2, e3, -⟩ := block_numbers t
  funext y
  rw [View.read_apply]
  refine congrArg A ?_
  funext a
  apply Fin.ext
  match a with
  | ⟨0, _⟩ => show win0_1.index t (0 : Fin 2) * 128 + 1 * (y 0).val = (y 0).val; rw [e2]; omega
  | ⟨1, _⟩ => show win0_1.index t (1 : Fin 2) * 256 + 1 * (y 1).val = (y 1).val; rw [e3]; omega

/-- The bias's block at every point is the whole vector. -/
theorem read_bias_block (c : Dev nD) (A : Buf (Elt Ideal) ((c : Thread nD τ).loc (Pipeline.arrRef spec0 2))) (t : Fin cfg0.N) :
    (((cfg0.win 2).blk t).view.read (Elt Ideal) A : FVec Ideal S256 .f32) = (A : FVec Ideal S256 .f32) := by
  obtain ⟨-, -, -, -, e4, -⟩ := block_numbers t
  funext y
  rw [View.read_apply]
  refine congrArg A ?_
  funext a
  apply Fin.ext
  match a with
  | ⟨0, _⟩ => show win0_2.index t (0 : Fin 1) * 256 + 1 * (y 0).val = (y 0).val; rw [e4]; omega

/-- Block `t` of the dense layer: the body's result on the blocks of any three arrays at point `t`, read through the
    result's block, is block `t` of the dense layer of the whole arrays. -/
theorem block_of_rows (c : Dev nD) (A0 : Buf (Elt Ideal) ((c : Thread nD τ).loc (Pipeline.arrRef spec0 0)))
    (A1 : Buf (Elt Ideal) ((c : Thread nD τ).loc (Pipeline.arrRef spec0 1)))
    (A2 : Buf (Elt Ideal) ((c : Thread nD τ).loc (Pipeline.arrRef spec0 2))) (t : Fin cfg0.N) :
    (cfg0.win 3).cut (grid0.coords t) (out0_3 (((cfg0.win 0).blk t).view.read (Elt Ideal) A0)
        (((cfg0.win 1).blk t).view.read (Elt Ideal) A1) (((cfg0.win 2).blk t).view.read (Elt Ideal) A2))
      = ((cfg0.win 3).blk t).view.read (Elt Ideal) (rows 50000 A0 A1 A2) := by
  have hN : cfg0.N = 10 := N_0
  obtain ⟨-, -, -, -, -, e5, e6⟩ := block_numbers t
  unfold out0_3
  rw [View.canon_unit_zero zero2]
  simp only [View.ld_unit_zero (S := S5000x128) zero2, View.ld_unit_zero (S := S128x256) zero2, View.ld_unit_zero (S := S256) zero1]
  funext j
  show k0_pay1 (F := Ideal) (((cfg0.win 0).blk t).view.read (Elt Ideal) A0) (((cfg0.win 1).blk t).view.read (Elt Ideal) A1)
      (((cfg0.win 2).blk t).view.read (Elt Ideal) A2) j
    = rows 50000 A0 A1 A2 (((cfg0.win 3).blk t).view.emb j)
  obtain ⟨p, q, rfl⟩ : ∃ (p : Fin 5000) (q : Fin 256), j = ix2 p q := ⟨j 0, j 1, eq_ix2 j⟩
  have hlt : t.val * 5000 + p.val < 50000 := by have := t.isLt; have := p.isLt; omega
  have he : ((cfg0.win 3).blk t).view.emb (ix2 p q) = ix2 (⟨t.val * 5000 + p.val, hlt⟩ : Fin 50000) q := by
    funext a
    apply Fin.ext
    match a with
    | ⟨0, _⟩ => show win0_3.index t (0 : Fin 2) * 5000 + 1 * p.val = t.val * 5000 + p.val; rw [e5]; omega
    | ⟨1, _⟩ => show win0_3.index t (1 : Fin 2) * 256 + 1 * q.val = q.val; rw [e6]; omega
  rw [he]
  refine (congrFun (stored_eq_rows _ _ _) (ix2 p q)).trans ?_
  rw [read_weights_block, read_bias_block]
  exact rows_block A0 (((cfg0.win 0).blk t).view.read (Elt Ideal) A0) A1 A2 p ⟨t.val * 5000 + p.val, hlt⟩ q
    (fun k => read_table_block c A0 t p k _ rfl)

/-- WHAT POINT `t` WRITES BACK is block `t` of the dense layer of the table, the weights and the bias as the kernel finds
    them at launch. -/
theorem flushed_eq (c : Dev nD) (t : Fin cfg0.N) :
    (dats m 0 c).flushed 3 t = ((cfg0.win 3).blk t).view.read (Elt Ideal)
      (rows 50000 (V m c (Pipeline.arrRef spec0 0)) (V m c (Pipeline.arrRef spec0 1)) (V m c (Pipeline.arrRef spec0 2))) :=
  (flushed3 m c t).trans (block_of_rows c (V m c (Pipeline.arrRef spec0 0)) (V m c (Pipeline.arrRef spec0 1)) (V m c (Pipeline.arrRef spec0 2)) t)

/-- An index of the result is in point `t`'s block iff each coordinate is in the block's range on its axis. -/
theorem mem_block (t : Fin cfg0.N) (i : S50000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v13).slice (win0_3.rect t)).set ↔ _
  rw [View.set_slice_whole, Rect.mem_set_unit]
  exact Iff.rfl

/-- Every index of the result lies in a block that is written back: row `r` in block `r / 5000`. -/
theorem covered (i : S50000x256.Idx) : ∃ t : Fin cfg0.N, (cfg0.win 3).flush t = true ∧ i ∈ ((cfg0.win 3).blk t).view.set := by
  have hN : cfg0.N = 10 := N_0
  have h0 : (i 0).val < 50000 := (i 0).isLt
  have h1 : (i 1).val < 256 := (i 1).isLt
  have ht : (i 0).val / 5000 < cfg0.N := by omega
  obtain ⟨-, -, -, -, -, e5, e6⟩ := block_numbers ⟨(i 0).val / 5000, ht⟩
  refine ⟨⟨(i 0).val / 5000, ht⟩, flush0_3 _, ?_⟩
  rw [mem_block]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e5]
    show (i 0).val / 5000 * 5000 ≤ (i 0).val ∧ (i 0).val < (i 0).val / 5000 * 5000 + 5000
    omega
  | ⟨1, _⟩ =>
    show win0_3.index ⟨(i 0).val / 5000, ht⟩ (1 : Fin 2) * 256 ≤ (i 1).val
      ∧ (i 1).val < win0_3.index ⟨(i 0).val / 5000, ht⟩ (1 : Fin 2) * 256 + 256
    rw [e6]
    omega

/-- THE RESULT ARRAY after the run is the dense layer of the table, the weights and the bias the kernel was launched on. -/
theorem final (c : Dev nD) :
    (dats m 0 c).arrAt 3 cfg0.N
      = rows 50000 (V m c (Pipeline.arrRef spec0 0)) (V m c (Pipeline.arrRef spec0 1)) (V m c (Pipeline.arrRef spec0 2)) :=
  (dats m 0 c).arrAt_eq_of_cover 3
    (rows 50000 (V m c (Pipeline.arrRef spec0 0)) (V m c (Pipeline.arrRef spec0 1)) (V m c (Pipeline.arrRef spec0 2)))
    (fun t _ => flushed_eq m c t) covered

/-- The run, read: the result at the dense layer of the launch-time table and of the weight and bias arguments, the
    arguments unchanged. -/
theorem run : θ_run defs (onTc (τ := τ) (main (F := Ideal))) ⟨m, fun _ => 0, ρ⟩ fun r => ∀ c : Dev nD,
      r.2.mem ((c : Thread nD τ).loc main_v13)
        = rows 50000 (V m c main_v12) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans
      (congrArg₂ (rows 50000 (V m c (Pipeline.arrRef spec0 0))) (V_main_arg4 m c) (V_main_arg5 m c))), (h c).2⟩)
    (run_blocks m ρ)

end Cert.KernelRows

end
-- ==== Proof.RefRows.lean ====
/-
  The reference, read index by index. Its last three stages are a matrix product of the aggregated table with the
  weights (a sum over the 128 contracted positions), the bias laid along every row by two broadcasts, and their sum:
  at row `r` and column `c` that is `(∑ k, agg (r, k) · W (k, c)) + b c`, the dense layer `AffineRows.rows` of the
  aggregated table, whatever the earlier stages (the gather and the segment sum) computed.
-/
import proofs.«155313_j50105088475682_1_alg».proof.Proof.Gen.ReferenceIdeal.Read
import proofs.«155313_j50105088475682_1_alg».proof.Proof.AffineRows

noncomputable section

namespace Cert.RefRows

open Idealize.ShloMosaic Idealize.ShloMosaic.ValueIdx
open Cert.ReferenceIdeal Cert.ReferenceIdeal.Read Cert.AffineRows
open scoped BigOperators

/-- The reference's result is the dense layer of its aggregated table, its weights and its bias. -/
theorem result_eq_rows (x0 : (⟨S50000x128, .f32⟩ : BufTy).Contents (Elt Ideal)) (x1 x2 : (⟨S800000, .i32⟩ : BufTy).Contents (Elt Ideal))
    (x3 : (⟨S800000, .f32⟩ : BufTy).Contents (Elt Ideal)) (x4 : (⟨S128x256, .f32⟩ : BufTy).Contents (Elt Ideal))
    (x5 : (⟨S256, .f32⟩ : BufTy).Contents (Elt Ideal)) :
    val_main_v16 (F := Ideal) x0 x1 x2 x3 x4 x5 = rows 50000 (val_main_v12 (F := Ideal) x0 x1 x2 x3) x4 x5 := by
  funext i
  obtain ⟨r, c, rfl⟩ : ∃ (r : Fin 50000) (c : Fin 256), i = ix2 r c := ⟨i 0, i 1, eq_ix2 i⟩
  have el : ∀ k : Fin 128, lidx_main_v13 (ix2 r c) k = ix2 r k := fun k => funext fun a => Fin.ext (by
    match a with
    | ⟨0, _⟩ => rfl
    | ⟨1, _⟩ => rfl)
  have er : ∀ k : Fin 128, ridx_main_v13 (ix2 r c) k = ix2 k c := fun k => funext fun a => Fin.ext (by
    match a with
    | ⟨0, _⟩ => rfl
    | ⟨1, _⟩ => rfl)
  have eb : idx_main_v14 (idx_main_v15 (ix2 r c)) = ix1 c := funext fun a => Fin.ext (by
    match a with
    | ⟨0, _⟩ => rfl)
  rw [val_main_v16_apply, val_main_v13_apply, val_main_v15_apply, val_main_v14_apply, rows_apply, eb]
  simp only [el, er]
  rfl

end Cert.RefRows

end
-- ==== Proof.HostChain.lean ====
/-
  Before the kernel is launched, the program computes the aggregated table on the host: the edge weights laid along the
  feature axis, times the rows of the node table gathered at the edges' source numbers, summed into the rows named by the
  edges' destination numbers. The reference computes its aggregated table by the same operations on the same arguments, in
  the same order, so the two tables are one term of the arguments: nothing about a gather or a segment sum is needed
  beyond that both programs apply them alike.
-/
import proofs.«155313_j50105088475682_1_alg».proof.Proof.Gen.KernelIdeal.Frame
import proofs.«155313_j50105088475682_1_alg».proof.Proof.Gen.ReferenceIdeal.Read

noncomputable section

namespace Cert.HostChain

open Idealize.ShloMosaic Idealize.ShloMosaic.TcCoe Idealize.SL.Sem
open Cert.KernelIdeal Cert.KernelIdeal.Gen

variable (m : (ℓ : Loc nD τ sig) → Buf (Elt Ideal) ℓ)

/-- The table the kernel's first operand holds when the kernel is launched is the reference's aggregated table of the
    same four arguments (node table, destination numbers, source numbers, edge weights). -/
theorem agg_eq (c : Dev nD) :
    (V m c main_v12 : FVec Ideal S50000x128 .f32)
      = Cert.ReferenceIdeal.Read.val_main_v12 (F := Ideal) (m ((c : Thread nD τ).loc main_arg0)) (m ((c : Thread nD τ).loc main_arg1))
          (m ((c : Thread nD τ).loc main_arg2)) (m ((c : Thread nD τ).loc main_arg3)) := by
  dsimp only [V, hostOps0]
  after_results
  rfl

end Cert.HostChain

end
-- ==== Proof.lean ====
/-
  The proof of `Cert.Claim`: a graph-convolution layer `out = agg · W + b`, where the aggregated table
  `agg = segment_sum (edge_val · x[edge_col], edge_row)` is computed on the host and the dense part by a kernel that works
  on 5000 rows at a time, against the plain reference that computes the same `agg` and then `agg · W + b` in one piece.

  On the extended reals both programs end at ONE function of the arguments, `AffineRows.rows`:
      out (r, c) = (∑ k : Fin 128, agg (r, k) · W (k, c)) + b c.
  * The reference (`RefRows.result_eq_rows`): its matrix product is that sum, its two broadcasts lay `b` along every row.
  * The kernel (`BodyRows.stored_eq_rows`, `KernelRows.run`): at each of the ten grid points the body stores the same
    formula of the 5000 rows it loaded — the change of float format before the product is the identity on the extended
    reals and the product starts from a zero accumulator —, a row of the result depends on the same row of the table only,
    and the ten row blocks cover the 50000 rows.
  * The table (`HostChain.agg_eq`): both programs apply the same host operations to the same arguments, so `agg` is one
    term on both sides and is never opened.
  Both sides are the same sum in the same order, so no law of the extended reals that needs finite entries is used, and the
  precondition is never opened. The idealization rewrote no operation, so `preserves` has nothing to state; the three
  frames are the generated ones (the reference's is its run with the result dropped).
-/
import proofs.«155313_j50105088475682_1_alg».proof.Defs
import proofs.«155313_j50105088475682_1_alg».proof.Proof.Gen.Kernel
import proofs.«155313_j50105088475682_1_alg».proof.Proof.Gen.Kernel.Skeleton
import proofs.«155313_j50105088475682_1_alg».proof.Proof.Gen.Kernel.Launch
import proofs.«155313_j50105088475682_1_alg».proof.Proof.Gen.Kernel.Points
import proofs.«155313_j50105088475682_1_alg».proof.Proof.Gen.Kernel.Frame
import proofs.«155313_j50105088475682_1_alg».proof.Proof.Gen.KernelIdeal
import proofs.«155313_j50105088475682_1_alg».proof.Proof.Gen.KernelIdeal.Skeleton
import proofs.«155313_j50105088475682_1_alg».proof.Proof.Gen.KernelIdeal.Launch
import proofs.«155313_j50105088475682_1_alg».proof.Proof.Gen.KernelIdeal.Points
import proofs.«155313_j50105088475682_1_alg».proof.Proof.Gen.KernelIdeal.Frame
import proofs.«155313_j50105088475682_1_alg».proof.Proof.Gen.ReferenceIdeal
import proofs.«155313_j50105088475682_1_alg».proof.Proof.Gen.Pre_finite_inputs
import proofs.«155313_j50105088475682_1_alg».proof.Proof.Gen.KernelIdeal.Value
import proofs.«155313_j50105088475682_1_alg».proof.Proof.Gen.ReferenceIdeal.Run
import proofs.«155313_j50105088475682_1_alg».proof.Proof.Gen.ReferenceIdeal.Read
import proofs.«155313_j50105088475682_1_alg».proof.Proof.KernelRows
import proofs.«155313_j50105088475682_1_alg».proof.Proof.RefRows
import proofs.«155313_j50105088475682_1_alg».proof.Proof.HostChain
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments, both programs end with the dense layer of the aggregated table:
    the kernel's result array by `KernelRows.run` with the launch-time table read as the reference's (`HostChain.agg_eq`),
    the reference's by its run read as the same function (`RefRows.result_eq_rows`). -/
theorem algebraic : Cert.algebraic_KernelIdeal_ReferenceIdeal := by
  intro m ρ m' ρ' _ hagree
  refine ⟨fun c => Cert.AffineRows.rows 50000 (Cert.KernelIdeal.Gen.V m c Cert.KernelIdeal.main_v12)
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelRows.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v16_eq, Cert.RefRows.result_eq_rows, a0, a1, a2, a3, a4, a5]
  exact congrArg (fun A => Cert.AffineRows.rows 50000 A _ _) (Cert.HostChain.agg_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
